-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x50 : Shape := ⟨2, ![800000, 50]⟩
abbrev S50x128 : Shape := ⟨2, ![50, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x50 : S_.BroadcastsInDim S800000x50 (![] : Fin 0 → Fin S800000x50.rank)
  reducesTo_S800000x50_S_d0_1 : S800000x50.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x50 .f32) (main_arg3 : FVec F S50x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x50 .f32 := Host.absf main_arg2
  let main_cst_0 : FVec F S_ .f32 := constant S_ .f32 0x7F800000#32
  let main_v5 : FVec F S800000x50 .f32 := broadcastInDim S800000x50 ![] bcast_S_S800000x50 main_cst_0
  let main_v6 : IVec S800000x50 1 := cmpf .olt main_v4 main_v5
  let main_c_1 : IVec S_ 1 := constantI S_ 1 1#1
  let main_v7 : IVec S_ 1 := (fun x v => Host.reduce IntOp.andi x v reducesTo_S800000x50_S_d0_1 h_S_) main_v6 main_c_1
  let main_v8 : IVec S_ 1 := andi main_v3 main_v7
  let main_v9 : FVec F S50x128 .f32 := Host.absf main_arg3
  let main_cst_2 : FVec F S_ .f32 := constant S_ .f32 0x7F800000#32
  let main_v10 : FVec F S50x128 .f32 := broadcastInDim S50x128 ![] bcast_S_S50x128 main_cst_2
  let main_v11 : IVec S50x128 1 := cmpf .olt main_v9 main_v10
  let main_c_3 : IVec S_ 1 := constantI S_ 1 1#1
  let main_v12 : IVec S_ 1 := (fun x v => Host.reduce IntOp.andi x v reducesTo_S50x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x50 : Shape := ⟨2, ![800000, 50]⟩
abbrev S50x128 : Shape := ⟨2, ![50, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S4000x128 : Shape := ⟨2, ![4000, 128]⟩
abbrev S4000x50 : Shape := ⟨2, ![4000, 50]⟩
abbrev S5000x128 : Shape := ⟨2, ![5000, 128]⟩

abbrev nBuf : Space → Nat
  | .hbm => 34
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x50, .f32⟩
  | .hbm, ⟨3, _⟩ => ⟨S50x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S1x128, .f32⟩
  | .hbm, ⟨25, _⟩ => ⟨S1x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128, .f32⟩
  | .hbm, ⟨32, _⟩ => ⟨S1x128, .f32⟩
  | .hbm, ⟨33, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x50, .f32⟩
  | .local _ .vmem, ⟨3, _⟩ => ⟨S4000x50, .f32⟩
  | .local _ .vmem, ⟨4, _⟩ => ⟨S50x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S4000x50_S4000x50_0_0 : ∀ a, (![0, 0] : Fin 2 → Nat) a + S4000x50.size a ≤ S4000x50.size a
  h_S4000x50 : 0 < S4000x50.numel
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S4000x50_S50x128_S4000x128_1_0_0_1_n_n_wf : DotDims.WF S4000x50 S50x128 S4000x128 [1] [0] [0] [1] [] []
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x50.size a ≤ S800000x50.size a
  hwx0_1 : ∀ i : grid0.Coords, EltTy.bits .f32 = 32 ∨ (Rect.block (s := S800000x50) S4000x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .f32 = 32 ∨ (Rect.block (s := S50x128) S50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S800000x128.size a
  hwx0_6 : ∀ i : grid0.Coords, EltTy.bits .f32 = 32 ∨ (Rect.block (s := S800000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x50_S50x128_S4000x128_1_0_0_1_n_n : DotDims S4000x50 S50x128 S4000x128 where
  lhsContracting := [1]
  rhsContracting := [0]
  lhsNonContracting := [0]
  rhsNonContracting := [1]
  lhsBatch := []
  rhsBatch := []
  wf := dot_S4000x50_S50x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S50x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x50 : Shape := ⟨2, ![800000, 50]⟩
abbrev S50x128 : Shape := ⟨2, ![50, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x50, .f32⟩
  | .hbm, ⟨3, _⟩ => ⟨S50x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S800000x128, .f32⟩
  | .hbm, ⟨16, _⟩ => ⟨S1x128, .f32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S800000x128, .f32⟩
  | .hbm, ⟨26, _⟩ => ⟨S800000x128, .f32⟩
  | .hbm, ⟨27, _⟩ => ⟨S800000x128, .f32⟩
  | .hbm, ⟨28, _⟩ => ⟨S800000x128, .f32⟩
  | .hbm, ⟨29, _⟩ => ⟨S1x128, .f32⟩
  | .hbm, ⟨30, _⟩ => ⟨S800000x128, .f32⟩
  | .hbm, ⟨31, _⟩ => ⟨S800000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x50_S50x128_S800000x128_1_0_0_1_n_n_wf : DotDims.WF S800000x50 S50x128 S800000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S800000x50_S50x128_S800000x128_1_0_0_1_n_n : DotDims S800000x50 S50x128 S800000x128 where
  lhsContracting := [1]
  rhsContracting := [0]
  lhsNonContracting := [0]
  rhsNonContracting := [1]
  lhsBatch := []
  rhsBatch := []
  wf := dot_S800000x50_S50x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result NAMED. The program is two pipelined regions among three stretches of host
  operations; the buffer contents at each boundary are a fold through the program from the launch memory, and at the last
  boundary every unscoped buffer of a core, the result among them, holds that fold's value. So every weakly fair
  execution terminates with the result buffer at the last boundary's contents and the argument arrays as launched.
-/
import proofs.«180053_j40295383171093_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents the
    fold through the two regions and the host stretches gives it, and the argument arrays as launched. -/
theorem run : θ_run defs (onTc (τ := τ) (main (F := F))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Whole

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«180053_j40295383171093_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSiluMlp.lean ====
/-
  Two dense layers with the sigmoid-weighted linear unit between them, on the rows of a matrix, over the extended reals:
  entry `(p, q)` of the result is `Σ_k s(Σ_j X(p,j)·W₁(j,k) + b₁(k)) · W₂(k,q) + b₂(q)` with `s(h) = h · σ(h)` and
  `σ(h) = 1 / (1 + e^(−h))`. The unit has two spellings: a kernel multiplies `h` by the one operation `logistic h`,
  a host program by the quotient `1 / (1 + exp (−h))` with the ones broadcast from a scalar; on the extended reals both are
  `h · σ(h)`, the infinities included, because `σ` is defined there as that very quotient. So a row-tiled kernel body
  (two matrix-unit products into zero accumulators, operands rounded to bf16, each followed by a broadcast bias row) and the
  host's two `dot_general`s with twice-lifted biases compute one function of the rows; and since entry `(p, q)` reads row
  `p` of `X` only, a block of rows computes the corresponding rows of the whole.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«180053_j40295383171093_1_alg».proof.Proof.LibAffine

namespace Idealize.ShloMosaic.SiluMlp

open Idealize.ShloMosaic.ValueIdx Idealize.ShloMosaic.Affine

/-- The sigmoid-weighted linear unit on an extended real: `h · σ(h)`. -/
noncomputable def silu (h : EReal) : EReal := h * Ideal.logistic h

/-- The kernel's spelling, `h · logistic h`, at an index. -/
theorem silu_kernel_apply {s : Shape} (h : FVec Ideal s .f32) (i : s.Idx) : mulf h (logistic h) i = silu (h i) := rfl

/-- The host's spelling, `h · (1 / (1 + exp (−h)))` with both ones a scalar `1.0` broadcast, at an index. -/
theorem silu_host_apply {s : Shape} (h : FVec Ideal s .f32) (hb : (⟨0, ![]⟩ : Shape).BroadcastsInDim s ![]) (i : s.Idx) :
    mulf h (Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf h)))) i
      = silu (h i) := by
  have h1 : broadcastInDim s ![] hb (constant (F := Ideal) ⟨0, ![]⟩ .f32 0x3F800000#32) i = 1 := by
    rw [broadcastInDim_scalar_apply, constant_apply, Ideal.ofBits_one_f32]
  refine (mulf_apply _ _ _).trans (congrArg (h i * ·) ?_)
  refine (hostDivf_apply _ _ _).trans ?_
  rw [addf_apply, h1]
  rfl

variable {A K H M : Nat}

/-- The two layers on the rows of `X`, the biases given as one-row matrices. -/
noncomputable def mlp {φ₁ φ₂ : FTy} (X : FVec Ideal ⟨2, ![A, K]⟩ .f32) (W₁ : FVec Ideal ⟨2, ![K, H]⟩ φ₁)
    (b₁ : FVec Ideal ⟨2, ![1, H]⟩ .f32) (W₂ : FVec Ideal ⟨2, ![H, M]⟩ φ₂) (b₂ : FVec Ideal ⟨2, ![1, M]⟩ .f32) :
    FVec Ideal ⟨2, ![A, M]⟩ .f32 :=
  affine (fun i => silu (affine X W₁ b₁ i) : FVec Ideal ⟨2, ![A, H]⟩ .f32) W₂ b₂

theorem mlp_ix2 {φ₁ φ₂ : FTy} (X : FVec Ideal ⟨2, ![A, K]⟩ .f32) (W₁ : FVec Ideal ⟨2, ![K, H]⟩ φ₁)
    (b₁ : FVec Ideal ⟨2, ![1, H]⟩ .f32) (W₂ : FVec Ideal ⟨2, ![H, M]⟩ φ₂) (b₂ : FVec Ideal ⟨2, ![1, M]⟩ .f32)
    (p : Fin A) (q : Fin M) :
    mlp X W₁ b₁ W₂ b₂ (ix2 p q)
      = (∑ k : Fin H, silu ((∑ j : Fin K, X (ix2 p j) * W₁ (ix2 j k)) + b₁ (ix2 (0 : Fin 1) k)) * W₂ (ix2 k q))
        + b₂ (ix2 (0 : Fin 1) q) := rfl

/-- Entry `(p, q)` reads row `p` of the input only: two inputs that agree on a row give the same entries there. -/
theorem mlp_row_congr {A' : Nat} {φ₁ φ₂ : FTy} (X : FVec Ideal ⟨2, ![A, K]⟩ .f32) (X' : FVec Ideal ⟨2, ![A', K]⟩ .f32)
    (W₁ : FVec Ideal ⟨2, ![K, H]⟩ φ₁) (b₁ : FVec Ideal ⟨2, ![1, H]⟩ .f32) (W₂ : FVec Ideal ⟨2, ![H, M]⟩ φ₂)
    (b₂ : FVec Ideal ⟨2, ![1, M]⟩ .f32) (p : Fin A) (p' : Fin A') (q : Fin M)
    (hrow : ∀ j : Fin K, X (ix2 p j) = X' (ix2 p' j)) :
    mlp X W₁ b₁ W₂ b₂ (ix2 p q) = mlp X' W₁ b₁ W₂ b₂ (ix2 p' q) := by
  rw [mlp_ix2, mlp_ix2]
  simp only [hrow]

/-- The kernel body's two layers at row `p`, column `q` of its block of rows. -/
theorem body_apply {φ₁ φ₂ : FTy} (prec₁ prec₂ : Option ContractPrecision) (x0 : FVec Ideal ⟨2, ![A, K]⟩ .f32)
    (x1 : FVec Ideal ⟨2, ![K, H]⟩ φ₁) (x2 : FVec Ideal ⟨2, ![1, H]⟩ .f32) (x4 : FVec Ideal ⟨2, ![H, M]⟩ φ₂)
    (x5 : FVec Ideal ⟨2, ![1, M]⟩ .f32) (ht : FTy.bf16.bits < FTy.f32.bits)
    (hb₁ : (⟨2, ![1, H]⟩ : Shape).Broadcasts ⟨2, ![A, H]⟩) (hb₂ : (⟨2, ![1, M]⟩ : Shape).Broadcasts ⟨2, ![A, M]⟩)
    (p : Fin A) (q : Fin M) :
    addf (FloatOps.matmul (DotDims.plain A H M) prec₂
          (truncf .bf16
            (mulf
              (addf (FloatOps.matmul (DotDims.plain A K H) prec₁ (truncf .bf16 x0 ht) x1
                (constant ⟨2, ![A, H]⟩ .f32 0x00000000#32)) (broadcastTo ⟨2, ![A, H]⟩ x2 hb₁))
              (logistic
                (addf (FloatOps.matmul (DotDims.plain A K H) prec₁ (truncf .bf16 x0 ht) x1
                  (constant ⟨2, ![A, H]⟩ .f32 0x00000000#32)) (broadcastTo ⟨2, ![A, H]⟩ x2 hb₁)))) ht)
          x4 (constant ⟨2, ![A, M]⟩ .f32 0x00000000#32))
        (broadcastTo ⟨2, ![A, M]⟩ x5 hb₂) (ix2 p q)
      = mlp x0 x1 x2 x4 x5 (ix2 p q) := by
  refine (Affine.body_apply prec₂ _ x4 x5 ht hb₂ p q).trans ?_
  unfold mlp
  refine congrArg (fun Y : FVec Ideal ⟨2, ![A, H]⟩ .f32 => affine Y x4 x5 (ix2 p q)) ?_
  funext i
  obtain ⟨r, k, rfl⟩ : ∃ (r : Fin A) (k : Fin H), i = ix2 r k := ⟨i 0, i 1, eq_ix2 i⟩
  exact (silu_kernel_apply _ _).trans (congrArg silu (Affine.body_apply prec₁ x0 x1 x2 ht hb₁ r k))

/-- The host's two layers: `dot_general`, twice-lifted bias, the unit in its quotient spelling, `dot_general`, twice-lifted
    bias. The kernel's weights are the host's rounded to bf16 (the identity here) and its bias rows the host's biases
    recast to one row. -/
theorem host_eq (prec₁ prec₂ : Option ContractPrecision) (sched₁ sched₂ : HostSchedule) (X : FVec Ideal ⟨2, ![A, K]⟩ .f32)
    (W₁ : FVec Ideal ⟨2, ![K, H]⟩ .f32) (b₁ : FVec Ideal ⟨1, ![H]⟩ .f32) (W₂ : FVec Ideal ⟨2, ![H, M]⟩ .f32)
    (b₂ : FVec Ideal ⟨1, ![M]⟩ .f32) (ht : FTy.bf16.bits < FTy.f32.bits)
    (hc₁ : (⟨1, ![H]⟩ : Shape).ShapeCasts ⟨2, ![1, H]⟩) (hc₂ : (⟨1, ![M]⟩ : Shape).ShapeCasts ⟨2, ![1, M]⟩)
    (h11 : (⟨1, ![H]⟩ : Shape).BroadcastsInDim ⟨2, ![1, H]⟩ ![1])
    (h12 : (⟨2, ![1, H]⟩ : Shape).BroadcastsInDim ⟨2, ![A, H]⟩ ![0, 1])
    (h21 : (⟨1, ![M]⟩ : Shape).BroadcastsInDim ⟨2, ![1, M]⟩ ![1])
    (h22 : (⟨2, ![1, M]⟩ : Shape).BroadcastsInDim ⟨2, ![A, M]⟩ ![0, 1])
    (hone : (⟨0, ![]⟩ : Shape).BroadcastsInDim ⟨2, ![A, H]⟩ ![]) :
    addf (FloatOps.dotGeneral (DotDims.plain A H M) prec₂ sched₂
          (mulf
            (addf (FloatOps.dotGeneral (DotDims.plain A K H) prec₁ sched₁ X W₁)
              (broadcastInDim ⟨2, ![A, H]⟩ ![0, 1] h12 (broadcastInDim ⟨2, ![1, H]⟩ ![1] h11 b₁)))
            (Host.divf (broadcastInDim ⟨2, ![A, H]⟩ ![] hone (constant (F := Ideal) ⟨0, ![]⟩ .f32 0x3F800000#32))
              (addf (broadcastInDim ⟨2, ![A, H]⟩ ![] hone (constant (F := Ideal) ⟨0, ![]⟩ .f32 0x3F800000#32))
                (Host.exp (Host.negf
                  (addf (FloatOps.dotGeneral (DotDims.plain A K H) prec₁ sched₁ X W₁)
                    (broadcastInDim ⟨2, ![A, H]⟩ ![0, 1] h12 (broadcastInDim ⟨2, ![1, H]⟩ ![1] h11 b₁))))))))
          W₂)
        (broadcastInDim ⟨2, ![A, M]⟩ ![0, 1] h22 (broadcastInDim ⟨2, ![1, M]⟩ ![1] h21 b₂))
      = mlp X (truncf .bf16 W₁ ht) (shapeCast ⟨2, ![1, H]⟩ b₁ hc₁) (truncf .bf16 W₂ ht) (shapeCast ⟨2, ![1, M]⟩ b₂ hc₂) := by
  have hh := affine_eq_host prec₁ sched₁ X W₁ b₁ ht hc₁ h11 h12
  rw [← hh]
  have hs : mulf (affine X (truncf .bf16 W₁ ht) (shapeCast ⟨2, ![1, H]⟩ b₁ hc₁))
        (Host.divf (broadcastInDim ⟨2, ![A, H]⟩ ![] hone (constant (F := Ideal) ⟨0, ![]⟩ .f32 0x3F800000#32))
          (addf (broadcastInDim ⟨2, ![A, H]⟩ ![] hone (constant (F := Ideal) ⟨0, ![]⟩ .f32 0x3F800000#32))
            (Host.exp (Host.negf (affine X (truncf .bf16 W₁ ht) (shapeCast ⟨2, ![1, H]⟩ b₁ hc₁))))))
      = (fun i => silu (affine X (truncf .bf16 W₁ ht) (shapeCast ⟨2, ![1, H]⟩ b₁ hc₁) i) : FVec Ideal ⟨2, ![A, H]⟩ .f32) :=
    funext fun i => silu_host_apply _ hone i
  rw [hs]
  exact (affine_eq_host prec₂ sched₂ _ W₂ b₂ ht hc₂ h21 h22).symm

end Idealize.ShloMosaic.SiluMlp
-- ==== Proof.Spec.lean ====
/-
  What the two kernels compute, as functions of whole arrays over the extended reals. An interaction layer of a
  continuous-filter network: each edge carries a filter, two dense layers with the sigmoid-weighted linear unit between them
  applied to the edge's features, and its message is the source node's row times that filter, entry by entry; a node's update
  is its own row plus the same kind of two-layer map of the messages summed at it. Both are stated for any number of rows:
  entry `(r, q)` reads row `r` of the row-indexed inputs only.
-/
import proofs.«180053_j40295383171093_1_alg».proof.Proof.LibSiluMlp

namespace Cert.Spec

open Idealize.ShloMosaic Idealize.ShloMosaic.ValueIdx Idealize.ShloMosaic.SiluMlp

variable {A K H M : Nat}

/-- The messages: row `r` of `xs` (the source node's features, one row per edge) times the filter of edge `r`. -/
noncomputable def messages {φ₁ φ₂ : FTy} (xs : FVec Ideal ⟨2, ![A, M]⟩ .f32) (ef : FVec Ideal ⟨2, ![A, K]⟩ .f32)
    (W₁ : FVec Ideal ⟨2, ![K, H]⟩ φ₁) (b₁ : FVec Ideal ⟨2, ![1, H]⟩ .f32) (W₂ : FVec Ideal ⟨2, ![H, M]⟩ φ₂)
    (b₂ : FVec Ideal ⟨2, ![1, M]⟩ .f32) : FVec Ideal ⟨2, ![A, M]⟩ .f32 :=
  fun i => xs i * mlp ef W₁ b₁ W₂ b₂ i

/-- The update: row `r` of `x` plus the two-layer map of row `r` of the aggregated messages. -/
noncomputable def update {φ₁ φ₂ : FTy} (x : FVec Ideal ⟨2, ![A, M]⟩ .f32) (agg : FVec Ideal ⟨2, ![A, K]⟩ .f32)
    (W₁ : FVec Ideal ⟨2, ![K, H]⟩ φ₁) (b₁ : FVec Ideal ⟨2, ![1, H]⟩ .f32) (W₂ : FVec Ideal ⟨2, ![H, M]⟩ φ₂)
    (b₂ : FVec Ideal ⟨2, ![1, M]⟩ .f32) : FVec Ideal ⟨2, ![A, M]⟩ .f32 :=
  fun i => x i + mlp agg W₁ b₁ W₂ b₂ i

end Cert.Spec
-- ==== Proof.EdgeRegion.lean ====
/-
  Region 0, the edge kernel, read as a value: whatever the device's buffers hold when the region is entered, the array it
  writes ends holding the messages of the arrays it reads. The grid has 200 points; point `t` stages rows
  `4000·t … 4000·t + 3999` of the gathered source rows and of the edge features, the two weight matrices and the two bias
  rows whole, and writes back rows `4000·t …` of the result. Entry `(p, q)` of what the body stores is the staged source
  entry `(p, q)` times the two-layer map of staged feature row `p`; since that map reads one row only, the block is the
  restriction of the whole-array messages to the point's rows, and the 200 blocks tile the 800000 rows.
-/
import proofs.«180053_j40295383171093_1_alg».proof.Proof.Gen.KernelIdeal.Frame
import proofs.«180053_j40295383171093_1_alg».proof.Proof.Spec
import Idealize.ShloMosaic.Lib.Pipeline.Value

set_option maxRecDepth 16384

noncomputable section

namespace Cert.KernelIdeal.Edge

open Cert.KernelIdeal Cert.KernelIdeal.Gen Cert.Spec
open Idealize.ShloMosaic Idealize.ShloMosaic.TcCoe Idealize.ShloMosaic.ValueIdx Idealize.ShloMosaic.SiluMlp Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## What the body stores, at an index of its block -/

/-- Entry `(p, q)` of the stored block: the staged source entry times the two-layer map of staged feature row `p`. -/
theorem stored_apply (v0 : Vec Ideal S4000x50 .f32) (v2 : Vec Ideal S50x128 .f32) (v5 : Vec Ideal S1x128 .f32)
    (v12 : Vec Ideal S128x128 .f32) (v15 : Vec Ideal S1x128 .f32) (v19 : Vec Ideal S4000x128 .f32) (p : Fin 4000) (q : Fin 128) :
    k0_pay1 (F := Ideal) v0 v2 v5 v12 v15 v19 (ix2 p q)
      = v19 (ix2 p q) * mlp v0 (truncf .bf16 v2 bitsLt_bf16_f32) v5 (truncf .bf16 v12 bitsLt_bf16_f32) v15 (ix2 p q) := by
  unfold k0_pay1
  refine (mulf_apply _ _ _).trans ?_
  refine congrArg₂ (· * ·) ?_ ?_
  · rw [shapeCast_self]
  · refine (SiluMlp.body_apply none none v0 (truncf .bf16 v2 bitsLt_bf16_f32) (shapeCast S1x128 v5 shapeCasts_S1x128_S1x128)
      (truncf .bf16 v12 bitsLt_bf16_f32) (shapeCast S1x128 v15 shapeCasts_S1x128_S1x128) bitsLt_bf16_f32
      broadcasts_S1x128_S4000x128 broadcasts_S1x128_S4000x128 p q).trans ?_
    rw [shapeCast_self, shapeCast_self]

/-- The stored block against the whole arrays: if index `j` of the block and index `i` of the arrays are in one column, the
    staged source entry at `j` is the array's at `i`, and staged feature row `j₀` is the array's row `i₀`, then the stored
    entry at `j` is the messages' entry at `i`. -/
theorem stored_eq_messages (efB : Vec Ideal S4000x50 .f32) (w1 : Vec Ideal S50x128 .f32) (b1 : Vec Ideal S1x128 .f32)
    (w2 : Vec Ideal S128x128 .f32) (b2 : Vec Ideal S1x128 .f32) (xsB : Vec Ideal S4000x128 .f32)
    (XS : FVec Ideal S800000x128 .f32) (EF : FVec Ideal S800000x50 .f32) (j : S4000x128.Idx) (i : S800000x128.Idx)
    (hcol : (i 1).val = (j 1).val) (hxs : xsB j = XS i)
    (hef : ∀ k : Fin 50, efB (ix2 ⟨(j 0).val, idx2_lt0 j⟩ k) = EF (ix2 ⟨(i 0).val, idx2_lt0 i⟩ k)) :
    k0_pay1 (F := Ideal) efB w1 b1 w2 b2 xsB j
      = messages XS EF (truncf .bf16 w1 bitsLt_bf16_f32) b1 (truncf .bf16 w2 bitsLt_bf16_f32) b2 i := by
  obtain ⟨p, q, rfl⟩ : ∃ (p : Fin 4000) (q : Fin 128), j = ix2 p q := ⟨j 0, j 1, eq_ix2 j⟩
  obtain ⟨r, q', rfl⟩ : ∃ (r : Fin 800000) (q' : Fin 128), i = ix2 r q' := ⟨i 0, i 1, eq_ix2 i⟩
  obtain rfl : q' = q := Fin.ext hcol
  rw [stored_apply]
  unfold messages
  rw [hxs]
  exact congrArg (XS (ix2 r q') * ·) (mlp_row_congr efB EF _ b1 _ b2 p r q' hef)

/-! ## The windows' index maps, decided once over the grid -/

/-- The three row-tiled windows are at block row `t`, column 0; the four whole-array windows at block `(0, 0)`. -/
theorem index_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- A whole-array window's block is its array: the first weight matrix … -/
theorem block_w2 (c : Dev nD) (t : Fin cfg0.N) : iblk0 V c 2 t = V c main_arg3 := by
  obtain ⟨-, -, -, -, -, -, e0, e1, -⟩ := index_facts t
  funext y
  unfold iblk0
  rw [View.read_apply]
  refine congrArg (V c main_arg3) ?_
  funext a; apply Fin.ext
  match a with
  | ⟨0, _⟩ => show win0_2.index t (0 : Fin 2) * 50 + 1 * (y 0).val = (y 0).val; rw [e0]; omega
  | ⟨1, _⟩ => show win0_2.index t (1 : Fin 2) * 128 + 1 * (y 1).val = (y 1).val; rw [e1]; omega
/-- … the first bias row … -/
theorem block_w3 (c : Dev nD) (t : Fin cfg0.N) : iblk0 V c 3 t = V c main_v11 := by
  obtain ⟨-, -, -, -, -, -, -, -, e0, e1, -⟩ := index_facts t
  funext y
  unfold iblk0
  rw [View.read_apply]
  refine congrArg (V c main_v11) ?_
  funext a; apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega
/-- … the second weight matrix … -/
theorem block_w4 (c : Dev nD) (t : Fin cfg0.N) : iblk0 V c 4 t = V c main_arg5 := by
  obtain ⟨-, -, -, -, -, -, -, -, -, -, e0, e1, -⟩ := index_facts t
  funext y
  unfold iblk0
  rw [View.read_apply]
  refine congrArg (V c main_arg5) ?_
  funext a; apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
/-- … and the second bias row. -/
theorem block_w5 (c : Dev nD) (t : Fin cfg0.N) : iblk0 V c 5 t = V c main_v12 := by
  obtain ⟨-, -, -, -, -, -, -, -, -, -, -, -, e0, e1⟩ := index_facts t
  funext y
  unfold iblk0
  rw [View.read_apply]
  refine congrArg (V c main_v12) ?_
  funext a; apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-! ## What a point writes back, the cover, the array -/

/-- The messages of the arrays as the region finds them. -/
abbrev found (c : Dev nD) : FVec Ideal S800000x128 .f32 :=
  messages (V c main_v10) (V c main_arg2) (truncf .bf16 (V c main_arg3) bitsLt_bf16_f32) (V c main_v11)
    (truncf .bf16 (V c main_arg5) bitsLt_bf16_f32) (V c main_v12)

/-- What point `t` writes back is its block of rows of those messages. -/
theorem flushed_eq (c : Dev nD) (t : Fin cfg0.N) :
    (dat0 V c).flushed 6 t = ((cfg0.win 6).blk t).view.read (Elt Ideal) (found V c) := by
  show (cfg0.win 6).cut (grid0.coords t) ((dat0 V c).after 6 t) = _
  rw [after0_6]
  unfold out0_6
  rw [View.canon_unit_zero origin]
  simp only [View.ld_unit_zero (S := S4000x128) origin, View.ld_unit_zero (S := S4000x50) origin,
    View.ld_unit_zero (S := S50x128) origin, View.ld_unit_zero (S := S1x128) origin, View.ld_unit_zero (S := S128x128) origin]
  rw [block_w2, block_w3, block_w4, block_w5]
  obtain ⟨e60, e61, e00, e01, e10, e11, -⟩ := index_facts t
  funext j
  show k0_pay1 (iblk0 V c 1 t) (V c main_arg3) (V c main_v11) (V c main_arg5) (V c main_v12) (iblk0 V c 0 t) j
    = found V c (((cfg0.win 6).blk t).view.emb j)
  refine stored_eq_messages _ _ _ _ _ _ _ _ j _ ?_ ?_ ?_
  · show win0_6.index t (1 : Fin 2) * 128 + 1 * (j 1).val = (j 1).val
    rw [e61]; omega
  · unfold iblk0
    rw [View.read_apply]
    refine congrArg (V c main_v10) ?_
    funext a; apply Fin.ext
    match a with
    | ⟨0, _⟩ => show win0_0.index t (0 : Fin 2) * 4000 + 1 * (j 0).val = win0_6.index t (0 : Fin 2) * 4000 + 1 * (j 0).val; rw [e00, e60]
    | ⟨1, _⟩ => show win0_0.index t (1 : Fin 2) * 128 + 1 * (j 1).val = win0_6.index t (1 : Fin 2) * 128 + 1 * (j 1).val; rw [e01, e61]
  · intro k
    unfold iblk0
    rw [View.read_apply]
    refine congrArg (V c main_arg2) ?_
    funext a; apply Fin.ext
    match a with
    | ⟨0, _⟩ => show win0_1.index t (0 : Fin 2) * 4000 + 1 * (j 0).val = win0_6.index t (0 : Fin 2) * 4000 + 1 * (j 0).val; rw [e10, e60]
    | ⟨1, _⟩ => show win0_1.index t (1 : Fin 2) * 50 + 1 * k.val = k.val; rw [e11]; omega

/-- An index of the array is in point `t`'s block iff each coordinate is in the block's range on its axis. -/
theorem mem_block (t : Fin cfg0.N) (i : S800000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v13).slice (win0_6.rect t)).set ↔ _
  rw [View.set_slice_whole, Rect.mem_set_unit]
  exact Iff.rfl

/-- Row `r` is in the block of point `r / 4000`: the blocks tile the array. -/
theorem covered (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  have hN : grid0.N = 200 := N_0
  let t : Fin cfg0.N := ⟨(i 0).val / 4000, by show (i 0).val / 4000 < grid0.N; rw [hN]; omega⟩
  obtain ⟨e60, e61, -⟩ := index_facts t
  have et : t.val = (i 0).val / 4000 := rfl
  refine ⟨t, flush0_6 t, ?_⟩
  rw [mem_block]
  intro a
  match a with
  | ⟨0, _⟩ => show win0_6.index t (0 : Fin 2) * 4000 ≤ (i 0).val ∧ (i 0).val < win0_6.index t (0 : Fin 2) * 4000 + 4000; rw [e60, et]; omega
  | ⟨1, _⟩ => show win0_6.index t (1 : Fin 2) * 128 ≤ (i 1).val ∧ (i 1).val < win0_6.index t (1 : Fin 2) * 128 + 128; rw [e61]; omega

/-- The region's result array ends holding the messages of the arrays as the region finds them. -/
theorem final (c : Dev nD) : (dat0 V c).arrAt 6 cfg0.N = found V c :=
  (dat0 V c).arrAt_eq_of_cover 6 (found V c) (fun t _ => flushed_eq V c t) covered

end Cert.KernelIdeal.Edge

end
-- ==== Proof.NodeRegion.lean ====
/-
  Region 1, the node kernel, read as a value: whatever the device's buffers hold when the region is entered, the array it
  writes ends holding the update of the arrays it reads. The grid has 10 points; point `t` stages rows
  `5000·t … 5000·t + 4999` of the node features and of the aggregated messages, the two weight matrices and the two bias
  rows whole, and writes back rows `5000·t …` of the result. Entry `(p, q)` of what the body stores is the staged node
  entry `(p, q)` plus the two-layer map of staged aggregate row `p`; the block is the restriction of the whole-array
  update to the point's rows, and the 10 blocks tile the 50000 rows.
-/
import proofs.«180053_j40295383171093_1_alg».proof.Proof.Gen.KernelIdeal.Frame
import proofs.«180053_j40295383171093_1_alg».proof.Proof.Spec
import Idealize.ShloMosaic.Lib.Pipeline.Value

set_option maxRecDepth 16384

noncomputable section

namespace Cert.KernelIdeal.Node

open Cert.KernelIdeal Cert.KernelIdeal.Gen Cert.Spec
open Idealize.ShloMosaic Idealize.ShloMosaic.TcCoe Idealize.ShloMosaic.ValueIdx Idealize.ShloMosaic.SiluMlp Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## What the body stores, at an index of its block -/

/-- Entry `(p, q)` of the stored block: the staged node entry plus the two-layer map of staged aggregate row `p`. -/
theorem stored_apply (v0 : Vec Ideal S5000x128 .f32) (v3 : Vec Ideal S128x128 .f32) (v6 : Vec Ideal S1x128 .f32)
    (v13 : Vec Ideal S128x128 .f32) (v16 : Vec Ideal S1x128 .f32) (v20 : Vec Ideal S5000x128 .f32) (p : Fin 5000) (q : Fin 128) :
    k1_pay1 (F := Ideal) v0 v3 v6 v13 v16 v20 (ix2 p q)
      = v20 (ix2 p q) + mlp v0 (truncf .bf16 v3 bitsLt_bf16_f32) v6 (truncf .bf16 v13 bitsLt_bf16_f32) v16 (ix2 p q) := by
  unfold k1_pay1
  refine (addf_apply _ _ _).trans ?_
  refine congrArg (v20 (ix2 p q) + ·) ?_
  refine (SiluMlp.body_apply none none (shapeCast S5000x128 v0 shapeCasts_S5000x128_S5000x128) (truncf .bf16 v3 bitsLt_bf16_f32)
    (shapeCast S1x128 v6 shapeCasts_S1x128_S1x128) (truncf .bf16 v13 bitsLt_bf16_f32)
    (shapeCast S1x128 v16 shapeCasts_S1x128_S1x128) bitsLt_bf16_f32
    broadcasts_S1x128_S5000x128 broadcasts_S1x128_S5000x128 p q).trans ?_
  rw [shapeCast_self, shapeCast_self, shapeCast_self]

/-- The stored block against the whole arrays: if index `j` of the block and index `i` of the arrays are in one column, the
    staged node entry at `j` is the array's at `i`, and staged aggregate row `j₀` is the array's row `i₀`, then the stored
    entry at `j` is the update's entry at `i`. -/
theorem stored_eq_update (aggB : Vec Ideal S5000x128 .f32) (w1 : Vec Ideal S128x128 .f32) (b1 : Vec Ideal S1x128 .f32)
    (w2 : Vec Ideal S128x128 .f32) (b2 : Vec Ideal S1x128 .f32) (xB : Vec Ideal S5000x128 .f32)
    (X : FVec Ideal S50000x128 .f32) (AGG : FVec Ideal S50000x128 .f32) (j : S5000x128.Idx) (i : S50000x128.Idx)
    (hcol : (i 1).val = (j 1).val) (hx : xB j = X i)
    (hagg : ∀ k : Fin 128, aggB (ix2 ⟨(j 0).val, idx2_lt0 j⟩ k) = AGG (ix2 ⟨(i 0).val, idx2_lt0 i⟩ k)) :
    k1_pay1 (F := Ideal) aggB w1 b1 w2 b2 xB j
      = update X AGG (truncf .bf16 w1 bitsLt_bf16_f32) b1 (truncf .bf16 w2 bitsLt_bf16_f32) b2 i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hcol
  rw [stored_apply]
  unfold update
  rw [hx]
  exact congrArg (X (ix2 r q') + ·) (mlp_row_congr aggB AGG _ b1 _ b2 p r q' hagg)

/-! ## The windows' index maps, decided once over the grid -/

/-- The three row-tiled windows are at block row `t`, column 0; the four whole-array windows at block `(0, 0)`. -/
theorem index_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- A whole-array window's block is its array: the first weight matrix … -/
theorem block_w2 (c : Dev nD) (t : Fin cfg1.N) : iblk1 V c 2 t = V c main_arg7 := by
  obtain ⟨-, -, -, -, -, -, e0, e1, -⟩ := index_facts t
  funext y
  unfold iblk1
  rw [View.read_apply]
  refine congrArg (V c main_arg7) ?_
  funext a; apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega
/-- … the first bias row … -/
theorem block_w3 (c : Dev nD) (t : Fin cfg1.N) : iblk1 V c 3 t = V c main_v17 := by
  obtain ⟨-, -, -, -, -, -, -, -, e0, e1, -⟩ := index_facts t
  funext y
  unfold iblk1
  rw [View.read_apply]
  refine congrArg (V c main_v17) ?_
  funext a; apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega
/-- … the second weight matrix … -/
theorem block_w4 (c : Dev nD) (t : Fin cfg1.N) : iblk1 V c 4 t = V c main_arg9 := by
  obtain ⟨-, -, -, -, -, -, -, -, -, -, e0, e1, -⟩ := index_facts t
  funext y
  unfold iblk1
  rw [View.read_apply]
  refine congrArg (V c main_arg9) ?_
  funext a; apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega
/-- … and the second bias row. -/
theorem block_w5 (c : Dev nD) (t : Fin cfg1.N) : iblk1 V c 5 t = V c main_v18 := by
  obtain ⟨-, -, -, -, -, -, -, -, -, -, -, -, e0, e1⟩ := index_facts t
  funext y
  unfold iblk1
  rw [View.read_apply]
  refine congrArg (V c main_v18) ?_
  funext a; apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-! ## What a point writes back, the cover, the array -/

/-- The update of the arrays as the region finds them. -/
abbrev found (c : Dev nD) : FVec Ideal S50000x128 .f32 :=
  update (V c main_arg0) (V c main_v16) (truncf .bf16 (V c main_arg7) bitsLt_bf16_f32) (V c main_v17)
    (truncf .bf16 (V c main_arg9) bitsLt_bf16_f32) (V c main_v18)

/-- What point `t` writes back is its block of rows of that update. -/
theorem flushed_eq (c : Dev nD) (t : Fin cfg1.N) :
    (dat1 V c).flushed 6 t = ((cfg1.win 6).blk t).view.read (Elt Ideal) (found V c) := by
  show (cfg1.win 6).cut (grid1.coords t) ((dat1 V c).after 6 t) = _
  rw [after1_6]
  unfold out1_6
  rw [View.canon_unit_zero origin]
  simp only [View.ld_unit_zero (S := S5000x128) origin, View.ld_unit_zero (S := S1x128) origin,
    View.ld_unit_zero (S := S128x128) origin]
  rw [block_w2, block_w3, block_w4, block_w5]
  obtain ⟨e60, e61, e00, e01, e10, e11, -⟩ := index_facts t
  funext j
  show k1_pay1 (iblk1 V c 1 t) (V c main_arg7) (V c main_v17) (V c main_arg9) (V c main_v18) (iblk1 V c 0 t) j
    = found V c (((cfg1.win 6).blk t).view.emb j)
  refine stored_eq_update _ _ _ _ _ _ _ _ j _ ?_ ?_ ?_
  · show win1_6.index t (1 : Fin 2) * 128 + 1 * (j 1).val = (j 1).val
    rw [e61]; omega
  · unfold iblk1
    rw [View.read_apply]
    refine congrArg (V c main_arg0) ?_
    funext a; apply Fin.ext
    match a with
    | ⟨0, _⟩ => show win1_0.index t (0 : Fin 2) * 5000 + 1 * (j 0).val = win1_6.index t (0 : Fin 2) * 5000 + 1 * (j 0).val; rw [e00, e60]
    | ⟨1, _⟩ => show win1_0.index t (1 : Fin 2) * 128 + 1 * (j 1).val = win1_6.index t (1 : Fin 2) * 128 + 1 * (j 1).val; rw [e01, e61]
  · intro k
    unfold iblk1
    rw [View.read_apply]
    refine congrArg (V c main_v16) ?_
    funext a; apply Fin.ext
    match a with
    | ⟨0, _⟩ => show win1_1.index t (0 : Fin 2) * 5000 + 1 * (j 0).val = win1_6.index t (0 : Fin 2) * 5000 + 1 * (j 0).val; rw [e10, e60]
    | ⟨1, _⟩ => show win1_1.index t (1 : Fin 2) * 128 + 1 * k.val = k.val; rw [e11]; omega

/-- An index of the array is in point `t`'s block iff each coordinate is in the block's range on its axis. -/
theorem mem_block (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v19).slice (win1_6.rect t)).set ↔ _
  rw [View.set_slice_whole, Rect.mem_set_unit]
  exact Iff.rfl

/-- Row `r` is in the block of point `r / 5000`: the blocks tile the array. -/
theorem covered (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; rw [hN]; omega⟩
  obtain ⟨e60, e61, -⟩ := index_facts t
  have et : t.val = (i 0).val / 5000 := rfl
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; rw [e60, et]; omega
  | ⟨1, _⟩ => show win1_6.index t (1 : Fin 2) * 128 ≤ (i 1).val ∧ (i 1).val < win1_6.index t (1 : Fin 2) * 128 + 128; rw [e61]; omega

/-- The region's result array ends holding the update of the arrays as the region finds them. -/
theorem final (c : Dev nD) : (dat1 V c).arrAt 6 cfg1.N = found V c :=
  (dat1 V c).arrAt_eq_of_cover 6 (found V c) (fun t _ => flushed_eq V c t) covered

end Cert.KernelIdeal.Node

end
-- ==== Proof.Layer.lean ====
/-
  The whole interaction layer as ONE function of the eleven argument arrays, over the extended reals. The edge list's first row
  names each edge's source node (a negative number wrapped by the number of nodes), its second row the target node. Gather the
  source rows, form the messages, add each message into its target node's row of a zero array, and update the nodes. The two
  irregular steps are the host's gather and scatter-add, which the kernel and the reference both leave to the host, with the
  same index columns; everything between and after is the dense arithmetic of the specification.
-/
import proofs.«180053_j40295383171093_1_alg».proof.KernelIdeal
import proofs.«180053_j40295383171093_1_alg».proof.Proof.Gen.KernelIdeal
import proofs.«180053_j40295383171093_1_alg».proof.Proof.Spec

noncomputable section

namespace Cert.KernelIdeal.Whole

open Cert.KernelIdeal Cert.KernelIdeal.Facts₀ Cert.KernelIdeal.Facts Cert.Spec
open Idealize.ShloMosaic

/-- Row `k` of the edge list as a vector. -/
def edgeRow0 (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000
def edgeRow1 (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The source nodes as the gather's column of start indices: a negative number has the number of nodes added. -/
def sourceColumn (e : (⟨S2x800000, .i32⟩ : BufTy).Contents (Elt Ideal)) : (⟨S800000x1, .i32⟩ : BufTy).Contents (Elt Ideal) :=
  broadcastInDim S800000x1 ![0] bcast_S800000_S800000x1_0
    (select (cmpi .slt (edgeRow0 e) (broadcastInDim S800000 ![] bcast_S_S800000 (constantI S_ 32 0#32)))
      (addi (edgeRow0 e) (broadcastInDim S800000 ![] bcast_S_S800000 (constantI S_ 32 50000#32)))
      (edgeRow0 e))

/-- The target nodes as the scatter's column of indices. -/
def targetColumn (e : (⟨S2x800000, .i32⟩ : BufTy).Contents (Elt Ideal)) : (⟨S800000x1, .i32⟩ : BufTy).Contents (Elt Ideal) :=
  broadcastInDim S800000x1 ![0] bcast_S800000_S800000x1_0 (edgeRow1 e)

/-- The messages summed at their target nodes, from the gathered source rows. -/
def aggregate (e : (⟨S2x800000, .i32⟩ : BufTy).Contents (Elt Ideal)) (msgs : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (targetColumn e) msgs

/-- The source node's row of each edge. -/
def sourceRows (x : FVec Ideal S50000x128 .f32) (e : (⟨S2x800000, .i32⟩ : BufTy).Contents (Elt Ideal)) : FVec Ideal S800000x128 .f32 :=
  Host.gather gather_S50000x128_S800000x1_S800000x128_1_0_n_n_0_1_1128 x (sourceColumn e)

/-- The layer. -/
def layer (x : FVec Ideal S50000x128 .f32) (e : (⟨S2x800000, .i32⟩ : BufTy).Contents (Elt Ideal)) (ef : FVec Ideal S800000x50 .f32)
    (We1 : FVec Ideal S50x128 .f32) (be1 : FVec Ideal S128 .f32) (We2 : FVec Ideal S128x128 .f32) (be2 : FVec Ideal S128 .f32)
    (Wn1 : FVec Ideal S128x128 .f32) (bn1 : FVec Ideal S128 .f32) (Wn2 : FVec Ideal S128x128 .f32) (bn2 : FVec Ideal S128 .f32) :
    FVec Ideal S50000x128 .f32 :=
  update x
    (aggregate e
      (messages (sourceRows x e) ef (truncf .bf16 We1 bitsLt_bf16_f32) (shapeCast S1x128 be1 shapeCasts_S128_S1x128)
        (truncf .bf16 We2 bitsLt_bf16_f32) (shapeCast S1x128 be2 shapeCasts_S128_S1x128)))
    (truncf .bf16 Wn1 bitsLt_bf16_f32) (shapeCast S1x128 bn1 shapeCasts_S128_S1x128)
    (truncf .bf16 Wn2 bitsLt_bf16_f32) (shapeCast S1x128 bn2 shapeCasts_S128_S1x128)

end Cert.KernelIdeal.Whole

end
-- ==== Proof.KernelValue.lean ====
/-
  The kernel's result as the layer of its arguments. The result buffer at the last boundary is what region 1 leaves in its
  output array: the update of the arrays region 1 finds. Those are arguments untouched since the launch, two bias vectors the
  host recast to rows, and the host's scatter-add of what region 0 left in ITS output array, the messages of the arrays region
  0 finds: the host's gather of the node features, arguments, and two more recast bias vectors. Each "array as a region finds
  it" is read back through the host operations and the earlier region to the launch memory.
-/
import proofs.«180053_j40295383171093_1_alg».proof.Proof.Gen.KernelIdeal.Frame
import proofs.«180053_j40295383171093_1_alg».proof.Proof.EdgeRegion
import proofs.«180053_j40295383171093_1_alg».proof.Proof.NodeRegion
import proofs.«180053_j40295383171093_1_alg».proof.Proof.Layer
import Idealize.ShloMosaic.Lib.StableHlo.Run

set_option maxRecDepth 16384

noncomputable section

namespace Cert.KernelIdeal.Whole

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What region 0 finds -/

theorem found0_sources (c : Dev nD) :
    V1 m ρ c main_v10 = sourceRows (m ((c : Thread nD τ).loc main_arg0)) (m ((c : Thread nD τ).loc main_arg1)) := by
  show StableHlo.after hostOps0 (W0 m ρ c) (Proc.devRef .tc main_v10) = _
  after_results
  all_goals rfl
theorem found0_features (c : Dev nD) : V1 m ρ c main_arg2 = m ((c : Thread nD τ).loc main_arg2) := by
  show StableHlo.after hostOps0 (W0 m ρ c) (Proc.devRef .tc main_arg2) = _
  after_results
  all_goals rfl
theorem found0_weights1 (c : Dev nD) : V1 m ρ c main_arg3 = m ((c : Thread nD τ).loc main_arg3) := by
  show StableHlo.after hostOps0 (W0 m ρ c) (Proc.devRef .tc main_arg3) = _
  after_results
  all_goals rfl
theorem found0_bias1 (c : Dev nD) :
    V1 m ρ c main_v11 = shapeCast S1x128 (m ((c : Thread nD τ).loc main_arg4)) shapeCasts_S128_S1x128 := by
  show StableHlo.after hostOps0 (W0 m ρ c) (Proc.devRef .tc main_v11) = _
  after_results
  all_goals rfl
theorem found0_weights2 (c : Dev nD) : V1 m ρ c main_arg5 = m ((c : Thread nD τ).loc main_arg5) := by
  show StableHlo.after hostOps0 (W0 m ρ c) (Proc.devRef .tc main_arg5) = _
  after_results
  all_goals rfl
theorem found0_bias2 (c : Dev nD) :
    V1 m ρ c main_v12 = shapeCast S1x128 (m ((c : Thread nD τ).loc main_arg6)) shapeCasts_S128_S1x128 := by
  show StableHlo.after hostOps0 (W0 m ρ c) (Proc.devRef .tc main_v12) = _
  after_results
  all_goals rfl

/-- Region 0 leaves the messages of the launch memory's arrays in its output array. -/
theorem left0 (c : Dev nD) :
    W2 m ρ c (Proc.devRef .tc main_v13)
      = messages (sourceRows (m ((c : Thread nD τ).loc main_arg0)) (m ((c : Thread nD τ).loc main_arg1)))
          (m ((c : Thread nD τ).loc main_arg2)) (truncf .bf16 (m ((c : Thread nD τ).loc main_arg3)) bitsLt_bf16_f32)
          (shapeCast S1x128 (m ((c : Thread nD τ).loc main_arg4)) shapeCasts_S128_S1x128)
          (truncf .bf16 (m ((c : Thread nD τ).loc main_arg5)) bitsLt_bf16_f32)
          (shapeCast S1x128 (m ((c : Thread nD τ).loc main_arg6)) shapeCasts_S128_S1x128) := by
  refine ((W2_arr m ρ c 6).trans (Edge.final (V1 m ρ) c)).trans ?_
  show messages (V1 m ρ c main_v10) (V1 m ρ c main_arg2) (truncf .bf16 (V1 m ρ c main_arg3) bitsLt_bf16_f32) (V1 m ρ c main_v11)
    (truncf .bf16 (V1 m ρ c main_arg5) bitsLt_bf16_f32) (V1 m ρ c main_v12) = _
  rw [found0_sources, found0_features, found0_weights1, found0_bias1, found0_weights2, found0_bias2]

/-! ## What region 1 finds -/

/-- A buffer neither region 0 nor a host operation writes holds its launch contents when region 1 is entered. -/
theorem found1_nodes (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results
  all_goals rfl
theorem found1_weights1 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
  all_goals rfl
theorem found1_weights2 (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results
  all_goals rfl
theorem found1_bias1 (c : Dev nD) :
    V3 m ρ c main_v17 = shapeCast S1x128 (m ((c : Thread nD τ).loc main_arg8)) shapeCasts_S128_S1x128 := by
  have h8 : W2 m ρ c (Proc.devRef .tc main_arg8) = m ((c : Thread nD τ).loc main_arg8) := by
    rw [W2_of_ne m ρ c main_arg8 (by decide)]
    show StableHlo.after hostOps0 (W0 m ρ c) (Proc.devRef .tc main_arg8) = _
    after_results
    all_goals rfl
  show StableHlo.after hostOps1 (W2 m ρ c) (Proc.devRef .tc main_v17) = _
  after_results
  rw [h8]
  all_goals rfl
theorem found1_bias2 (c : Dev nD) :
    V3 m ρ c main_v18 = shapeCast S1x128 (m ((c : Thread nD τ).loc main_arg10)) shapeCasts_S128_S1x128 := by
  have h10 : W2 m ρ c (Proc.devRef .tc main_arg10) = m ((c : Thread nD τ).loc main_arg10) := by
    rw [W2_of_ne m ρ c main_arg10 (by decide)]
    show StableHlo.after hostOps0 (W0 m ρ c) (Proc.devRef .tc main_arg10) = _
    after_results
    all_goals rfl
  show StableHlo.after hostOps1 (W2 m ρ c) (Proc.devRef .tc main_v18) = _
  after_results
  rw [h10]
  all_goals rfl

/-- The target nodes' vector, computed before region 0, is still there after it. -/
theorem kept_targets (c : Dev nD) : W2 m ρ c (Proc.devRef .tc main_v3) = edgeRow1 (m ((c : Thread nD τ).loc main_arg1)) := by
  rw [W2_of_ne m ρ c main_v3 (by decide)]
  show StableHlo.after hostOps0 (W0 m ρ c) (Proc.devRef .tc main_v3) = _
  after_results
  all_goals rfl

/-- Region 1 finds the messages summed at their target nodes. -/
theorem found1_aggregate (c : Dev nD) :
    V3 m ρ c main_v16
      = aggregate (m ((c : Thread nD τ).loc main_arg1))
          (messages (sourceRows (m ((c : Thread nD τ).loc main_arg0)) (m ((c : Thread nD τ).loc main_arg1)))
            (m ((c : Thread nD τ).loc main_arg2)) (truncf .bf16 (m ((c : Thread nD τ).loc main_arg3)) bitsLt_bf16_f32)
            (shapeCast S1x128 (m ((c : Thread nD τ).loc main_arg4)) shapeCasts_S128_S1x128)
            (truncf .bf16 (m ((c : Thread nD τ).loc main_arg5)) bitsLt_bf16_f32)
            (shapeCast S1x128 (m ((c : Thread nD τ).loc main_arg6)) shapeCasts_S128_S1x128)) := by
  show StableHlo.after hostOps1 (W2 m ρ c) (Proc.devRef .tc main_v16) = _
  after_results
  rw [kept_targets, left0]
  all_goals rfl

/-! ## The result -/

/-- The result buffer at the last boundary is the layer of the launch memory's argument arrays. -/
theorem result_eq (c : Dev nD) :
    W4 m ρ c (Proc.devRef .tc main_v19)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine ((W4_arr m ρ c 6).trans (Node.final (V3 m ρ) c)).trans ?_
  show update (V3 m ρ c main_arg0) (V3 m ρ c main_v16) (truncf .bf16 (V3 m ρ c main_arg7) bitsLt_bf16_f32) (V3 m ρ c main_v17)
    (truncf .bf16 (V3 m ρ c main_arg9) bitsLt_bf16_f32) (V3 m ρ c main_v18) = _
  rw [found1_nodes, found1_aggregate, found1_weights1, found1_bias1, found1_weights2, found1_bias2]
  rfl

end Cert.KernelIdeal.Whole

end
-- ==== Proof.RefValue.lean ====
/-
  The reference's result as the layer of its arguments. The reference computes the edge filter for all 800000 edges at once:
  a `dot_general`, the bias lifted twice, the unit in its quotient spelling `h · (1 / (1 + exp (−h)))`, a second
  `dot_general` and bias; multiplies by the gathered source rows; scatter-adds into a zero array; and applies the same
  two-layer shape to the 50000 aggregated rows before adding the node features. Each two-layer stretch is the
  specification's two-layer map of its input rows, whole array against whole array, and the gather and the scatter-add are
  the layer's own, with the same index columns.
-/
import proofs.«180053_j40295383171093_1_alg».proof.Proof.Gen.ReferenceIdeal.Run
import proofs.«180053_j40295383171093_1_alg».proof.Proof.Layer

set_option maxRecDepth 16384

noncomputable section

namespace Cert.ReferenceIdeal.Whole

open Cert.ReferenceIdeal Cert.ReferenceIdeal.Facts₀ Cert.ReferenceIdeal.Facts Cert.Spec
open Idealize.ShloMosaic Idealize.ShloMosaic.TcCoe Idealize.ShloMosaic.ValueIdx Idealize.ShloMosaic.SiluMlp Idealize.SL.Sem

/-! ## The reference's operations, in three stretches over plain arrays -/

/-- The first dense layer of the edge filter, before the unit. -/
def edgeHidden (ef : FVec Ideal S800000x50 .f32) (We1 : FVec Ideal S50x128 .f32) (be1 : FVec Ideal S128 .f32) : FVec Ideal S800000x128 .f32 :=
  addf (Host.dotGeneral dot_S800000x50_S50x128_S800000x128_1_0_0_1_n_n none ef We1)
    (broadcastInDim S800000x128 ![0, 1] bcast_S1x128_S800000x128_0_1 (broadcastInDim S1x128 ![1] bcast_S128_S1x128_1 be1))

/-- The edge filter: dense layer, unit, dense layer. -/
def edgeFilter (ef : FVec Ideal S800000x50 .f32) (We1 : FVec Ideal S50x128 .f32) (be1 : FVec Ideal S128 .f32)
    (We2 : FVec Ideal S128x128 .f32) (be2 : FVec Ideal S128 .f32) : FVec Ideal S800000x128 .f32 :=
  addf (Host.dotGeneral dot_S800000x128_S128x128_S800000x128_1_0_0_1_n_n none
      (mulf (edgeHidden ef We1 be1)
        (Host.divf (broadcastInDim S800000x128 ![] bcast_S_S800000x128 (constant (F := Ideal) S_ .f32 0x3F800000#32))
          (addf (broadcastInDim S800000x128 ![] bcast_S_S800000x128 (constant (F := Ideal) S_ .f32 0x3F800000#32))
            (Host.exp (Host.negf (edgeHidden ef We1 be1))))))
      We2)
    (broadcastInDim S800000x128 ![0, 1] bcast_S1x128_S800000x128_0_1 (broadcastInDim S1x128 ![1] bcast_S128_S1x128_1 be2))

/-- The first dense layer of the node map, before the unit. -/
def nodeHidden (agg : FVec Ideal S50000x128 .f32) (Wn1 : FVec Ideal S128x128 .f32) (bn1 : FVec Ideal S128 .f32) : FVec Ideal S50000x128 .f32 :=
  addf (Host.dotGeneral dot_S50000x128_S128x128_S50000x128_1_0_0_1_n_n none agg Wn1)
    (broadcastInDim S50000x128 ![0, 1] bcast_S1x128_S50000x128_0_1 (broadcastInDim S1x128 ![1] bcast_S128_S1x128_1 bn1))

/-- The node map: dense layer, unit, dense layer. -/
def nodeMap (agg : FVec Ideal S50000x128 .f32) (Wn1 : FVec Ideal S128x128 .f32) (bn1 : FVec Ideal S128 .f32)
    (Wn2 : FVec Ideal S128x128 .f32) (bn2 : FVec Ideal S128 .f32) : FVec Ideal S50000x128 .f32 :=
  addf (Host.dotGeneral dot_S50000x128_S128x128_S50000x128_1_0_0_1_n_n none
      (mulf (nodeHidden agg Wn1 bn1)
        (Host.divf (broadcastInDim S50000x128 ![] bcast_S_S50000x128 (constant (F := Ideal) S_ .f32 0x3F800000#32))
          (addf (broadcastInDim S50000x128 ![] bcast_S_S50000x128 (constant (F := Ideal) S_ .f32 0x3F800000#32))
            (Host.exp (Host.negf (nodeHidden agg Wn1 bn1))))))
      Wn2)
    (broadcastInDim S50000x128 ![0, 1] bcast_S1x128_S50000x128_0_1 (broadcastInDim S1x128 ![1] bcast_S128_S1x128_1 bn2))

/-- The source rows, the messages summed at their targets, with the reference's own index columns. -/
def sourceRows (x : FVec Ideal S50000x128 .f32) (e : (⟨S2x800000, .i32⟩ : BufTy).Contents (Elt Ideal)) : FVec Ideal S800000x128 .f32 :=
  Host.gather gather_S50000x128_S800000x1_S800000x128_1_0_n_n_0_1_1128 x
    (broadcastInDim S800000x1 ![0] bcast_S800000_S800000x1_0
      (select (cmpi .slt (shapeCast _ (extractStridedSlice S1x800000 ![0, 0] e slices_S2x800000_S1x800000_0_0) shapeCasts_S1x800000_S800000)
          (broadcastInDim S800000 ![] bcast_S_S800000 (constantI S_ 32 0#32)))
        (addi (shapeCast _ (extractStridedSlice S1x800000 ![0, 0] e slices_S2x800000_S1x800000_0_0) shapeCasts_S1x800000_S800000)
          (broadcastInDim S800000 ![] bcast_S_S800000 (constantI S_ 32 50000#32)))
        (shapeCast _ (extractStridedSlice S1x800000 ![0, 0] e slices_S2x800000_S1x800000_0_0) shapeCasts_S1x800000_S800000)))
def aggregate (e : (⟨S2x800000, .i32⟩ : BufTy).Contents (Elt Ideal)) (msgs : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast _ (extractStridedSlice S1x800000 ![1, 0] e slices_S2x800000_S1x800000_1_0) shapeCasts_S1x800000_S800000))
    msgs

/-- The reference, whole. -/
def whole (x : FVec Ideal S50000x128 .f32) (e : (⟨S2x800000, .i32⟩ : BufTy).Contents (Elt Ideal)) (ef : FVec Ideal S800000x50 .f32)
    (We1 : FVec Ideal S50x128 .f32) (be1 : FVec Ideal S128 .f32) (We2 : FVec Ideal S128x128 .f32) (be2 : FVec Ideal S128 .f32)
    (Wn1 : FVec Ideal S128x128 .f32) (bn1 : FVec Ideal S128 .f32) (Wn2 : FVec Ideal S128x128 .f32) (bn2 : FVec Ideal S128 .f32) :
    FVec Ideal S50000x128 .f32 :=
  addf x (nodeMap (aggregate e (mulf (sourceRows x e) (edgeFilter ef We1 be1 We2 be2))) Wn1 bn1 Wn2 bn2)

/-! ## Each stretch is the specification's -/

theorem edgeFilter_eq (ef : FVec Ideal S800000x50 .f32) (We1 : FVec Ideal S50x128 .f32) (be1 : FVec Ideal S128 .f32)
    (We2 : FVec Ideal S128x128 .f32) (be2 : FVec Ideal S128 .f32) :
    edgeFilter ef We1 be1 We2 be2
      = mlp ef (truncf .bf16 We1 Cert.KernelIdeal.Facts₀.bitsLt_bf16_f32) (shapeCast S1x128 be1 Cert.KernelIdeal.Facts₀.shapeCasts_S128_S1x128)
          (truncf .bf16 We2 Cert.KernelIdeal.Facts₀.bitsLt_bf16_f32) (shapeCast S1x128 be2 Cert.KernelIdeal.Facts₀.shapeCasts_S128_S1x128) :=
  SiluMlp.host_eq (A := 800000) (K := 50) (H := 128) (M := 128) none none .single .single ef We1 be1 We2 be2 Cert.KernelIdeal.Facts₀.bitsLt_bf16_f32
    Cert.KernelIdeal.Facts₀.shapeCasts_S128_S1x128 Cert.KernelIdeal.Facts₀.shapeCasts_S128_S1x128
    bcast_S128_S1x128_1 bcast_S1x128_S800000x128_0_1 bcast_S128_S1x128_1 bcast_S1x128_S800000x128_0_1 bcast_S_S800000x128

theorem nodeMap_eq (agg : FVec Ideal S50000x128 .f32) (Wn1 : FVec Ideal S128x128 .f32) (bn1 : FVec Ideal S128 .f32)
    (Wn2 : FVec Ideal S128x128 .f32) (bn2 : FVec Ideal S128 .f32) :
    nodeMap agg Wn1 bn1 Wn2 bn2
      = mlp agg (truncf .bf16 Wn1 Cert.KernelIdeal.Facts₀.bitsLt_bf16_f32) (shapeCast S1x128 bn1 Cert.KernelIdeal.Facts₀.shapeCasts_S128_S1x128)
          (truncf .bf16 Wn2 Cert.KernelIdeal.Facts₀.bitsLt_bf16_f32) (shapeCast S1x128 bn2 Cert.KernelIdeal.Facts₀.shapeCasts_S128_S1x128) :=
  SiluMlp.host_eq (A := 50000) (K := 128) (H := 128) (M := 128) none none .single .single agg Wn1 bn1 Wn2 bn2 Cert.KernelIdeal.Facts₀.bitsLt_bf16_f32
    Cert.KernelIdeal.Facts₀.shapeCasts_S128_S1x128 Cert.KernelIdeal.Facts₀.shapeCasts_S128_S1x128
    bcast_S128_S1x128_1 bcast_S1x128_S50000x128_0_1 bcast_S128_S1x128_1 bcast_S1x128_S50000x128_0_1 bcast_S_S50000x128

/-- The reference's operations compute the layer. -/
theorem whole_eq_layer (x : FVec Ideal S50000x128 .f32) (e : (⟨S2x800000, .i32⟩ : BufTy).Contents (Elt Ideal)) (ef : FVec Ideal S800000x50 .f32)
    (We1 : FVec Ideal S50x128 .f32) (be1 : FVec Ideal S128 .f32) (We2 : FVec Ideal S128x128 .f32) (be2 : FVec Ideal S128 .f32)
    (Wn1 : FVec Ideal S128x128 .f32) (bn1 : FVec Ideal S128 .f32) (Wn2 : FVec Ideal S128x128 .f32) (bn2 : FVec Ideal S128 .f32) :
    whole x e ef We1 be1 We2 be2 Wn1 bn1 Wn2 bn2 = Cert.KernelIdeal.Whole.layer x e ef We1 be1 We2 be2 Wn1 bn1 Wn2 bn2 := by
  unfold whole
  rw [edgeFilter_eq, nodeMap_eq]
  rfl

/-! ## The run's term -/

variable (m : (ℓ : Loc nD τ sig) → Buf (Elt Ideal) ℓ)

/-- The run's result term is the layer of the launch memory's argument arrays. -/
theorem result_eq (c : Dev nD) :
    Cert.ReferenceIdeal.Value.res_main_v33 (F := Ideal) m c
      = Cert.KernelIdeal.Whole.layer (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
  (show Cert.ReferenceIdeal.Value.res_main_v33 (F := Ideal) m c
      = whole (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) from rfl).trans
    (whole_eq_layer _ _ _ _ _ _ _ _ _ _ _)

end Cert.ReferenceIdeal.Whole

end
-- ==== Proof.lean ====
/-
  The certificate of one interaction layer of a continuous-filter message-passing network, kernel against reference, over the
  extended reals. The kernel runs two pipelined regions among host operations: an edge kernel that forms, 4000 edges at a time,
  the message of each edge (the gathered source row times a two-layer filter of the edge's features), and a node kernel that,
  5000 nodes at a time, adds to each node's row a two-layer map of the messages the host summed at it. The reference does the
  same on whole arrays. Both are ONE function of the eleven arguments (`Whole.layer`): the gather and the scatter-add are the
  host's on both sides with the same index columns; the matrix unit's products into zero accumulators and the host's
  `dot_general`s are the same finite sums; rounding an operand to bf16 is the identity on extended reals; the bias rows are the
  bias vectors recast; and the sigmoid-weighted unit, spelt `h · logistic h` in the kernel and `h · (1 / (1 + exp (−h)))` in the
  reference, is one function because the logistic IS that quotient there, the infinities included. No law used moves a factor
  across a sum, so the finiteness of the inputs is never opened. The idealized kernel is the kernel's own text read at the
  extended reals (the ledger of rewrites is empty).
-/
import proofs.«180053_j40295383171093_1_alg».proof.Defs
import proofs.«180053_j40295383171093_1_alg».proof.Proof.Gen.Kernel
import proofs.«180053_j40295383171093_1_alg».proof.Proof.Gen.Kernel.Frame
import proofs.«180053_j40295383171093_1_alg».proof.Proof.Gen.KernelIdeal
import proofs.«180053_j40295383171093_1_alg».proof.Proof.Gen.KernelIdeal.Frame
import proofs.«180053_j40295383171093_1_alg».proof.Proof.Gen.ReferenceIdeal
import proofs.«180053_j40295383171093_1_alg».proof.Proof.Gen.Pre_finite_inputs
import proofs.«180053_j40295383171093_1_alg».proof.Proof.Gen.ReferenceIdeal.Run
import proofs.«180053_j40295383171093_1_alg».proof.Proof.KernelRun
import proofs.«180053_j40295383171093_1_alg».proof.Proof.KernelValue
import proofs.«180053_j40295383171093_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten to idealize the kernel. -/
theorem preserves : Cert.preserves_Kernel_KernelIdeal := trivial

/-- From memories that agree on the arguments both programs run and end with the layer of those arguments. -/
theorem algebraic : Cert.algebraic_KernelIdeal_ReferenceIdeal := by
  intro m ρ m' ρ' _ hagree
  refine ⟨fun c => Cert.KernelIdeal.Whole.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Whole.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Whole.result_eq m' c]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
